-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x32 : Shape := ⟨2, ![32768, 32]⟩
abbrev S16x2048x2048 : Shape := ⟨3, ![16, 2048, 2048]⟩
abbrev S32x32 : Shape := ⟨2, ![32, 32]⟩
abbrev S_ : Shape := ⟨0, ![]⟩

class Facts : Prop where
  bcast_S_S32768x32 : S_.BroadcastsInDim S32768x32 (![] : Fin 0 → Fin S32768x32.rank)
  reducesTo_S32768x32_S_d0_1 : S32768x32.ReducesTo [0, 1] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S32768x32 .f32) (main_arg1 : FVec F S16x2048x2048 .f32) (main_arg2 : FVec F S32x32 .f32) : IVec S_ 1 :=
  let main_v0 : FVec F S32768x32 .f32 := Host.absf main_arg0
  let main_cst : FVec F S_ .f32 := constant S_ .f32 0x7F800000#32
  let main_v1 : FVec F S32768x32 .f32 := broadcastInDim S32768x32 ![] bcast_S_S32768x32 main_cst
  let main_v2 : IVec S32768x32 1 := cmpf .olt main_v0 main_v1
  let main_c : IVec S_ 1 := constantI S_ 1 1#1
  let main_v3 : IVec S_ 1 := (fun x v => Host.reduce IntOp.andi x v reducesTo_S32768x32_S_d0_1 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S32768x32 : Shape := ⟨2, ![32768, 32]⟩
abbrev S16x2048x2048 : Shape := ⟨3, ![16, 2048, 2048]⟩
abbrev S32x32 : Shape := ⟨2, ![32, 32]⟩
abbrev S16x2048x32 : Shape := ⟨3, ![16, 2048, 32]⟩
abbrev S1x512x2048 : Shape := ⟨3, ![1, 512, 2048]⟩
abbrev S1x2048x32 : Shape := ⟨3, ![1, 2048, 32]⟩
abbrev S1x512x32 : Shape := ⟨3, ![1, 512, 32]⟩
abbrev S512x2048 : Shape := ⟨2, ![512, 2048]⟩
abbrev S2048x32 : Shape := ⟨2, ![2048, 32]⟩
abbrev S512x32 : Shape := ⟨2, ![512, 32]⟩

abbrev nBuf : Space → Nat
  | .hbm => 6
  | .vmem => 9
  | .smem => 0
  | _ => 0

abbrev bufTy : (tb : Table) → Fin (tcTables nBuf tb) → BufTy
  | .hbm, ⟨0, _⟩ => ⟨S32768x32, .f32⟩
  | .hbm, ⟨1, _⟩ => ⟨S16x2048x2048, .f32⟩
  | .hbm, ⟨2, _⟩ => ⟨S32x32, .f32⟩
  | .hbm, ⟨3, _⟩ => ⟨S16x2048x32, .f32⟩
  | .hbm, ⟨4, _⟩ => ⟨S16x2048x32, .f32⟩
  | .hbm, ⟨5, _⟩ => ⟨S32768x32, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x32, .f32⟩
  | .local _ .vmem, ⟨3, _⟩ => ⟨S1x2048x32, .f32⟩
  | .local _ .vmem, ⟨4, _⟩ => ⟨S1x512x32, .f32⟩
  | .local _ .vmem, ⟨5, _⟩ => ⟨S1x512x32, .f32⟩
  | .local _ .vmem, ⟨6, _⟩ => ⟨S32x32, .f32⟩
  | .local _ .vmem, ⟨7, _⟩ => ⟨S1x512x32, .f32⟩
  | .local _ .vmem, ⟨8, _⟩ => ⟨S1x512x32, .f32⟩
  | _, _ => ⟨S32768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32768x32_S16x2048x32 : S32768x32.ShapeCasts S16x2048x32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S32x32_S32x32_0_0 : ∀ a, (![0, 0] : Fin 2 → Nat) a + S32x32.size a ≤ S32x32.size a
  h_S32x32 : 0 < S32x32.numel
  shapeCasts_S512x32_S1x512x32 : S512x32.ShapeCasts S1x512x32
  shapeCasts_S16x2048x32_S32768x32 : S16x2048x32.ShapeCasts S32768x32
  dot_S512x2048_S2048x32_S512x32_1_0_0_1_n_n_wf : DotDims.WF S512x2048 S2048x32 S512x32 [1] [0] [0] [1] [] []
  dot_S512x32_S32x32_S512x32_1_0_0_1_n_n_wf : DotDims.WF S512x32 S32x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x32.size a ≤ S16x2048x32.size a
  hwx0_1 : ∀ i : grid0.Coords, EltTy.bits .f32 = 32 ∨ (Rect.block (s := S16x2048x32) S1x2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x32.size a ≤ S16x2048x32.size a
  hwx0_2 : ∀ i : grid0.Coords, EltTy.bits .f32 = 32 ∨ (Rect.block (s := S16x2048x32) S1x512x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x32.size a ≤ S16x2048x32.size a
  hwx0_4 : ∀ i : grid0.Coords, EltTy.bits .f32 = 32 ∨ (Rect.block (s := S16x2048x32) S1x512x32.size (cc0_transform_4 i) (hinb0_4 i)).WholeWords (EltTy.packing .f32)

variable [Facts₀]

def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf

abbrev win0_0 : Pipeline.Window sig grid0 :=
  Pipeline.Window.ofSpec (Memref.whole main_arg1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x32 : Shape := ⟨2, ![32768, 32]⟩
abbrev S16x2048x2048 : Shape := ⟨3, ![16, 2048, 2048]⟩
abbrev S32x32 : Shape := ⟨2, ![32, 32]⟩
abbrev S16x2048x32 : Shape := ⟨3, ![16, 2048, 32]⟩

abbrev nBuf : Space → Nat
  | .hbm => 12
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S16x2048x2048, .f32⟩
  | .hbm, ⟨2, _⟩ => ⟨S32x32, .f32⟩
  | .hbm, ⟨3, _⟩ => ⟨S32768x32, .f32⟩
  | .hbm, ⟨4, _⟩ => ⟨S16x2048x32, .f32⟩
  | .hbm, ⟨5, _⟩ => ⟨S16x2048x32, .f32⟩
  | .hbm, ⟨6, _⟩ => ⟨S16x2048x32, .f32⟩
  | .hbm, ⟨7, _⟩ => ⟨S32768x32, .f32⟩
  | .hbm, ⟨8, _⟩ => ⟨S32768x32, .f32⟩
  | .hbm, ⟨9, _⟩ => ⟨S16x2048x32, .f32⟩
  | .hbm, ⟨10, _⟩ => ⟨S16x2048x32, .f32⟩
  | .hbm, ⟨11, _⟩ => ⟨S32768x32, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  shapeCasts_S32768x32_S16x2048x32 : S32768x32.ShapeCasts S16x2048x32
  shapeCasts_S16x2048x32_S32768x32 : S16x2048x32.ShapeCasts S32768x32
  dot_S32768x32_S32x32_S32768x32_1_0_0_1_n_n_wf : DotDims.WF S32768x32 S32x32 S32768x32 [1] [0] [0] [1] [] []
  dot_S16x2048x2048_S16x2048x32_S16x2048x32_2_1_1_2_0_0_wf : DotDims.WF S16x2048x2048 S16x2048x32 S16x2048x32 [2] [1] [1] [2] [0] [0]

variable [Facts₀]

def dot_S32768x32_S32x32_S32768x32_1_0_0_1_n_n : DotDims S32768x32 S32x32 S32768x32 where
  lhsContracting := [1]
  rhsContracting := [0]
  lhsNonContracting := [0]
  rhsNonContracting := [1]
  lhsBatch := []
  rhsBatch := []
  wf := dot_S32768x32_S32x32_S32768x32_1_0_0_1_n_n_wf
def dot_S16x2048x2048_S16x2048x32_S16x2048x32_2_1_1_2_0_0 : DotDims S16x2048x2048 S16x2048x32 S16x2048x32 where
  lhsContracting := [2]
  rhsContracting := [1]
  lhsNonContracting := [1]
  rhsNonContracting := [2]
  lhsBatch := [0]
  rhsBatch := [0]
  wf := dot_S16x2048x2048_S16x2048x32_S16x2048x32_2_1_1_2_0_0_wf

class Facts : Prop extends Facts₀ where

variable [Facts]
-- ==== Proof.BodyBits.lean ====
/-
  The kernel body at one grid point, and the per-point data of the launch.

  At grid point `t = (b, i)` the body reads four staged blocks — rows `512 i … 512 i + 511` of the adjacency of
  batch `b`, all 2048 feature rows of batch `b`, feature rows `512 i … 512 i + 511` of batch `b`, and the whole
  weight matrix — and overwrites the staged result block with one value computed from them. The feature array
  is staged through two windows at once, so each of the two holds half of the read permission on it.
-/
import proofs.«140792_g20993800142880_cont_8to1_1634_6_alg».proof.Proof.Gen.Kernel.Launch
import proofs.«140792_g20993800142880_cont_8to1_1634_6_alg».proof.Proof.Gen.Kernel.Skeleton
import proofs.«140792_g20993800142880_cont_8to1_1634_6_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there:
    where it was not, the block index has not moved since the last fetch. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

abbrev rAdj : Rect S1x512x2048 := Rect.unit (s := S1x512x2048) ![0, 0, 0] S1x512x2048.size inb_S1x512x2048_S1x512x2048_0_0_0
abbrev rAll : Rect S1x2048x32 := Rect.unit (s := S1x2048x32) ![0, 0, 0] S1x2048x32.size inb_S1x2048x32_S1x2048x32_0_0_0
abbrev rRows : Rect S1x512x32 := Rect.unit (s := S1x512x32) ![0, 0, 0] S1x512x32.size inb_S1x512x32_S1x512x32_0_0_0
abbrev rW : Rect S32x32 := Rect.unit (s := S32x32) ![0, 0] S32x32.size inb_S32x32_S32x32_0_0

/-- What the body leaves in the result's staging buffer: its one store, over the whole buffer, of the value
    computed from the four input blocks. -/
def outBlk (x0 : Vec F S1x512x2048 .f32) (x1 : Vec F S1x2048x32 .f32) (x2 : Vec F S1x512x32 .f32) (x3 : Vec F S32x32 .f32) : Vec F S1x512x32 .f32 :=
  View.canon [⟨rRows, k0_pay1 (View.ld x0 rAdj) (View.ld x1 rAll) (View.ld x2 rRows) (View.ld x3 rW)⟩]

/-- The store covers the buffer. -/
theorem outCover (p0 : Vec F S1x512x32 .f32) (y : S1x512x32.Idx) :
    ∃ pc ∈ ([⟨rRows, p0⟩] : List (View.Piece (Elt F) S1x512x32 .f32)), y ∈ pc.1.set :=
  View.cover_of_tiled [⟨rRows, p0⟩] S1x512x32.size (by rfl) y

/-! ## The body's triple -/

set_option maxHeartbeats 1000000 in
/-- On whole staging buffers, the four inputs' at known contents and the result's at anything, the body runs to
    its end leaving the inputs' as they were and the result's at `outBlk` of them. -/
theorem sound_kernel (c : Dev nD) (E : Set ℕ) (i : grid0.Coords)
    (arg2 : Memref sig .tc .vmem S1x512x2048 .f32) (harg2 : arg2.IsWhole) (arg3 : Memref sig .tc .vmem S1x2048x32 .f32) (harg3 : arg3.IsWhole)
    (arg4 : Memref sig .tc .vmem S1x512x32 .f32) (harg4 : arg4.IsWhole) (arg5 : Memref sig .tc .vmem S32x32 .f32) (harg5 : arg5.IsWhole)
    (arg6 : Memref sig .tc .vmem S1x512x32 .f32) (harg6 : arg6.IsWhole)
    (x0 : Vec F S1x512x2048 .f32) (x1 : Vec F S1x2048x32 .f32) (x2 : Vec F S1x512x32 .f32) (x3 : Vec F S32x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__sage_kern i arg2 harg2 arg3 harg3 arg4 harg4 arg5 harg5 arg6 harg6) K := by
  simp only [cc0__sage_kern_eq_skeleton]; unfold cc0__sage_kern_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The launch's per-point data -/

/-- On core `c`: the arrays as the region finds them; after the body at point `t` each input's buffer at its block
    and the result's at `outBlk` of the four blocks; the invariant is the scoped buffers no window stages (there
    are none) and the generator register, both untouched; nothing owed. The feature array is read through windows 1 and 2, each holding half of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (iblk V c 0 t) (iblk V c 1 t) (iblk V c 2 t) (iblk V c 3 t)
  Φ _ := Pipeline.ΦA spec0 c
  q w := match w with
    | ⟨1, _⟩ => fullShare.left
    | ⟨2, _⟩ => fullShare.right
    | _ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outBlk (iblk V c 0 t) (iblk V c 1 t) (iblk V c 2 t) (iblk V c 3 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Frm

end
-- ==== Proof.RunBits.lean ====
/-
  The whole program as three segments — the reshape of the features into batches, the kernel region, the
  reshape of the result back into rows — and its run.

  The feature array reaches the region through two windows. At the region's entry its buffer, held whole, is
  split into two halves of the read permission, one per window; at the exit both windows hand their half back
  with the contents unchanged, and the halves are joined again. Every other array of the region is held whole
  by its one window. The only buffer the region changes is the result's.
-/
import proofs.«140792_g20993800142880_cont_8to1_1634_6_alg».proof.Proof.BodyBits
import Idealize.ShloMosaic.Lib.Pipeline.Frame
import Idealize.ShloMosaic.Lib.Pipeline.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's arrays against the buffers behind them -/

section Arrays

variable (V : (c : Dev nD) → (b : Ref sig .tc) → Buf (Elt F) ((c : Thread nD τ).loc b))

/-- The four distinct buffers behind the five windows' arrays, listed. -/
theorem arrBufs_list (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg1) ↦{fullShare} Vc main_arg1) ∗ (((c : Thread nD τ).loc main_v0) ↦{fullShare} Vc main_v0)
          ∗ (((c : Thread nD τ).loc main_arg2) ↦{fullShare} Vc main_arg2) ∗ (((c : Thread nD τ).loc main_v1) ↦{fullShare} Vc main_v1)) := by
  unfold Pipeline.arrBufs
  exact bigSep_eq_bigSepL_of_eq [main_arg1, main_v0, main_arg2, main_v1] (by decide) (by decide) _

/-- The share each window holds of its array: the two windows on the feature array hold half each. -/
theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl
theorem share_4 (c : Dev nD) : (dat V c).share 4 = fullShare := rfl

/-- The five windows' arrays, one by one, each the whole buffer behind it at the window's share. -/
theorem arrays_list (c : Dev nD) (Fn : (w : Fin cfg0.W) → Buf (Elt F) ((cfg0.win w).arr.view.loc (c : Thread nD τ))) :
    ((dat V c).arrays Fn : sProp 𝕄)
      = iprop((((c : Thread nD τ).loc main_arg1) ↦{fullShare} Fn 0) ∗ (((c : Thread nD τ).loc main_v0) ↦{fullShare.left} Fn 1)
          ∗ (((c : Thread nD τ).loc main_v0) ↦{fullShare.right} Fn 2) ∗ (((c : Thread nD τ).loc main_arg2) ↦{fullShare} Fn 3)
          ∗ (((c : Thread nD τ).loc main_v1) ↦{fullShare} Fn 4)) := by
  unfold Dat.arrays
  rw [bigSep_W0, (arr_whole0 0).set_eq_univ, (arr_whole0 1).set_eq_univ, (arr_whole0 3).set_eq_univ,
    (arr_whole0 4).set_eq_univ, share_0, share_1, share_2, share_3, share_4]

/-- ENTRY: the buffers behind the arrays, whole at the region's entry contents, are the windows' arrays at
    those contents — the feature array's buffer split into the two halves its two windows hold. -/
theorem arrays_of_arrBufs (c : Dev nD) :
    (Pipeline.arrBufs (Ix := Unit) (Name := ℕ) (U := UR sig nD τ) (Lvl := ℕ) spec0 c (V c) : sProp 𝕄)
      ⊢ (dat V c).arrays ((dat V c).arrAt · 0) := by
  rw [arrBufs_list, arrays_list]
  iintro ⟨H1, Hv0, H2, Hv1⟩
  ihave Hs := (pointsTo_share (PosShare.mem_left_op_right fullShare)).1 $$ Hv0
  icases Hs with ⟨HL, HR⟩
  isplitl [H1]; · iexact H1
  isplitl [HL]; · iexact HL
  isplitl [HR]; · iexact HR
  isplitl [H2]; · iexact H2
  iexact Hv1

/-- EXIT: the windows' arrays at what the region leaves — every input as it was found, the result at the folded
    write-backs — are the buffers behind them at any contents `V'` that has the result there and agrees with the
    entry contents at the three inputs' buffers; the feature array's two halves are joined. -/
theorem arrBufs_of_arrays (c : Dev nD) (V' : (b : Ref sig .tc) → Buf (Elt F) ((c : Thread nD τ).loc b))
    (h0 : V' main_arg1 = V c main_arg1) (h1 : V' main_v0 = V c main_v0) (h3 : V' main_arg2 = V c main_arg2)
    (h4 : V' main_v1 = (dat V c).arrAt 4 cfg0.N) :
    ((dat V c).arrays ((dat V c).arrAt · cfg0.N) : sProp 𝕄)
      ⊢ Pipeline.arrBufs (Ix := Unit) (Name := ℕ) (U := UR sig nD τ) (Lvl := ℕ) spec0 c V' := by
  rw [arrBufs_list, arrays_list, h0, h1, h3, h4,
    (dat V c).arrAt_in 0 rfl _, (dat V c).arrAt_in 1 rfl _, (dat V c).arrAt_in 2 rfl _, (dat V c).arrAt_in 3 rfl _]
  iintro ⟨H1, HL, HR, H2, Hv1⟩
  ihave Hv0 := (pointsTo_share (PosShare.mem_left_op_right fullShare)).2 $$ [HL HR]
  · isplitl [HL]; · iexact HL
    iexact HR
  isplitl [H1]; · iexact H1
  isplitl [Hv0]; · iexact Hv0
  isplitl [H2]; · iexact H2
  iexact Hv1

end Arrays

/-! ## The buffers' contents at each segment boundary -/

section Run

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first reshape: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the result's buffer at the folded write-backs, every other buffer as entered. -/
def W2 (c : Dev nD) : Valuation τ sig (Elt F) :=
  Function.update (W1 m ρ c) (Proc.devRef .tc main_v1) ((dat (V1 m ρ) c).arrAt 4 cfg0.N)
abbrev V2 : (c : Dev nD) → (b : Ref sig .tc) → Buf (Elt F) ((c : Thread nD τ).loc b) := fun c b => W2 m ρ c b
/-- After the second reshape: the end. -/
abbrev W3 : Dev nD → Valuation τ sig (Elt F) := fun c => StableHlo.after hostOps1 (W2 m ρ c)

theorem W2_v1 (c : Dev nD) : W2 m ρ c (Proc.devRef .tc main_v1) = (dat (V1 m ρ) c).arrAt 4 cfg0.N := by
  unfold W2; simp only [Function.update_self]

theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The first reshape writes only the batched features. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second reshape writes only the final result. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- Each argument reaches the end as launched. -/
theorem W3_arg (c : Dev nD) (b : Ref sig .tc) (h0 : b ≠ main_v0) (h1 : b ≠ main_v1) (h2 : b ≠ main_v2) :
    W3 m ρ c (Proc.devRef .tc b) = m ((c : Thread nD τ).loc b) :=
  (W3_of_ne m ρ c b h2).trans ((W2_of_ne m ρ c b h1).trans (W1_of_ne m ρ c b h0))

/-! ## The thread state and the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core
    owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

/-- A core's unscoped buffers at a valuation: the buffers behind the region's arrays and the rest. -/
theorem held_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held]
  exact Pipeline.unscopedBufs_split₀ cfgs (0 : Fin 1) winFacts₀0.arr_unscoped c _

/-- The buffers no window stages are untouched by the region. -/
theorem rest_eq (c : Dev nD) :
    (Pipeline.unscopedRest (Ix := Unit) (Name := ℕ) (U := UR sig nD τ) (Lvl := ℕ) spec0 c (V1 m ρ c) : sProp 𝕄)
      = Pipeline.unscopedRest (Ix := Unit) (Name := ℕ) (U := UR sig nD τ) (Lvl := ℕ) spec0 c (V2 m ρ c) := by
  have h0 : V2 m ρ c main_arg0 = V1 m ρ c main_arg0 := W2_of_ne m ρ c main_arg0 (by decide)
  have h2 : V2 m ρ c main_v2 = V1 m ρ c main_v2 := W2_of_ne m ρ c main_v2 (by decide)
  rw [unscopedRest0_eq, unscopedRest0_eq, h0, h2]

set_option backward.isDefEq.respectTransparency.types false in
/-- THE REGION: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none, held_split]
    iintro ⟨⟨⟨Hab, Hrest⟩, Hp, HO⟩, -, -⟩
    ihave Ha := (arrays_of_arrBufs (V1 m ρ) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : ((pdats m ρ 0 c).arrays ((pdats m ρ 0 c).arrAt · (Pipeline.pin (pcfgs (F := F)) adm 0).N) : sProp 𝕄)
        ⊢ Pipeline.arrBufs (Ix := Unit) (Name := ℕ) (U := UR sig nD τ) (Lvl := ℕ) spec0 c (V2 m ρ c) :=
      arrBufs_of_arrays (V1 m ρ) c (V2 m ρ c) (W2_of_ne m ρ c main_arg1 (by decide)) (W2_of_ne m ρ c main_v0 (by decide))
        (W2_of_ne m ρ c main_arg2 (by decide)) (W2_v1 m ρ c)
    rw [held_split, rest_eq]
    iintro ⟨Ha, HO, HY, Hrest⟩
    ihave Hab := hjoin $$ Ha
    imodintro
    isplitl [Hab Hrest]
    · isplitl [Hab]; · iexact Hab
      iexact Hrest
    isplitl [HY]; · iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show (iprop(StableHlo.held (c : Thread nD τ) (Pipeline.ucRefs τ sig) (W3 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run, read at the four buffers the claims speak of: the final result at the last boundary's contents, each
    argument as launched (no segment writes an argument). -/
theorem frame : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c _ (mem_uc main_v2 (by decide)),
      (h c _ (mem_uc main_arg0 (by decide))).trans (W3_arg m ρ c main_arg0 (by decide) (by decide) (by decide)),
      (h c _ (mem_uc main_arg1 (by decide))).trans (W3_arg m ρ c main_arg1 (by decide) (by decide) (by decide)),
      (h c _ (mem_uc main_arg2 (by decide))).trans (W3_arg m ρ c main_arg2 (by decide) (by decide) (by decide))⟩)
    (run_main m ρ)

end Run

end Cert.Kernel.Frm

end
-- ==== Proof.BodyIdeal.lean ====
/-
  The kernel body at one grid point, and the per-point data of the launch.

  At grid point `t = (b, i)` the body reads four staged blocks — rows `512 i … 512 i + 511` of the adjacency of
  batch `b`, all 2048 feature rows of batch `b`, feature rows `512 i … 512 i + 511` of batch `b`, and the whole
  weight matrix — and overwrites the staged result block with one value computed from them. The feature array
  is staged through two windows at once, so each of the two holds half of the read permission on it.
-/
import proofs.«140792_g20993800142880_cont_8to1_1634_6_alg».proof.Proof.Gen.KernelIdeal.Launch
import proofs.«140792_g20993800142880_cont_8to1_1634_6_alg».proof.Proof.Gen.KernelIdeal.Skeleton
import proofs.«140792_g20993800142880_cont_8to1_1634_6_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there:
    where it was not, the block index has not moved since the last fetch. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read or written whole -/

abbrev rAdj : Rect S1x512x2048 := Rect.unit (s := S1x512x2048) ![0, 0, 0] S1x512x2048.size inb_S1x512x2048_S1x512x2048_0_0_0
abbrev rAll : Rect S1x2048x32 := Rect.unit (s := S1x2048x32) ![0, 0, 0] S1x2048x32.size inb_S1x2048x32_S1x2048x32_0_0_0
abbrev rRows : Rect S1x512x32 := Rect.unit (s := S1x512x32) ![0, 0, 0] S1x512x32.size inb_S1x512x32_S1x512x32_0_0_0
abbrev rW : Rect S32x32 := Rect.unit (s := S32x32) ![0, 0] S32x32.size inb_S32x32_S32x32_0_0

/-- What the body leaves in the result's staging buffer: its one store, over the whole buffer, of the value
    computed from the four input blocks. -/
def outBlk (x0 : Vec F S1x512x2048 .f32) (x1 : Vec F S1x2048x32 .f32) (x2 : Vec F S1x512x32 .f32) (x3 : Vec F S32x32 .f32) : Vec F S1x512x32 .f32 :=
  View.canon [⟨rRows, k0_pay1 (View.ld x0 rAdj) (View.ld x1 rAll) (View.ld x2 rRows) (View.ld x3 rW)⟩]

/-- The store covers the buffer. -/
theorem outCover (p0 : Vec F S1x512x32 .f32) (y : S1x512x32.Idx) :
    ∃ pc ∈ ([⟨rRows, p0⟩] : List (View.Piece (Elt F) S1x512x32 .f32)), y ∈ pc.1.set :=
  View.cover_of_tiled [⟨rRows, p0⟩] S1x512x32.size (by rfl) y

/-! ## The body's triple -/

set_option maxHeartbeats 1000000 in
/-- On whole staging buffers, the four inputs' at known contents and the result's at anything, the body runs to
    its end leaving the inputs' as they were and the result's at `outBlk` of them. -/
theorem sound_kernel (c : Dev nD) (E : Set ℕ) (i : grid0.Coords)
    (arg2 : Memref sig .tc .vmem S1x512x2048 .f32) (harg2 : arg2.IsWhole) (arg3 : Memref sig .tc .vmem S1x2048x32 .f32) (harg3 : arg3.IsWhole)
    (arg4 : Memref sig .tc .vmem S1x512x32 .f32) (harg4 : arg4.IsWhole) (arg5 : Memref sig .tc .vmem S32x32 .f32) (harg5 : arg5.IsWhole)
    (arg6 : Memref sig .tc .vmem S1x512x32 .f32) (harg6 : arg6.IsWhole)
    (x0 : Vec F S1x512x2048 .f32) (x1 : Vec F S1x2048x32 .f32) (x2 : Vec F S1x512x32 .f32) (x3 : Vec F S32x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__sage_kern i arg2 harg2 arg3 harg3 arg4 harg4 arg5 harg5 arg6 harg6) K := by
  simp only [cc0__sage_kern_eq_skeleton]; unfold cc0__sage_kern_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The launch's per-point data -/

/-- On core `c`: the arrays as the region finds them; after the body at point `t` each input's buffer at its block
    and the result's at `outBlk` of the four blocks; the invariant is the scoped buffers no window stages (there
    are none) and the generator register, both untouched; nothing owed. The feature array is read through windows 1 and 2, each holding half of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (iblk V c 0 t) (iblk V c 1 t) (iblk V c 2 t) (iblk V c 3 t)
  Φ _ := Pipeline.ΦA spec0 c
  q w := match w with
    | ⟨1, _⟩ => fullShare.left
    | ⟨2, _⟩ => fullShare.right
    | _ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outBlk (iblk V c 0 t) (iblk V c 1 t) (iblk V c 2 t) (iblk V c 3 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Frm

end
-- ==== Proof.RunIdeal.lean ====
/-
  The whole program as three segments — the reshape of the features into batches, the kernel region, the
  reshape of the result back into rows — and its run.

  The feature array reaches the region through two windows. At the region's entry its buffer, held whole, is
  split into two halves of the read permission, one per window; at the exit both windows hand their half back
  with the contents unchanged, and the halves are joined again. Every other array of the region is held whole
  by its one window. The only buffer the region changes is the result's.
-/
import proofs.«140792_g20993800142880_cont_8to1_1634_6_alg».proof.Proof.BodyIdeal
import Idealize.ShloMosaic.Lib.Pipeline.Frame
import Idealize.ShloMosaic.Lib.Pipeline.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region's arrays against the buffers behind them -/

section Arrays

variable (V : (c : Dev nD) → (b : Ref sig .tc) → Buf (Elt F) ((c : Thread nD τ).loc b))

/-- The four distinct buffers behind the five windows' arrays, listed. -/
theorem arrBufs_list (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_arg1) ↦{fullShare} Vc main_arg1) ∗ (((c : Thread nD τ).loc main_v0) ↦{fullShare} Vc main_v0)
          ∗ (((c : Thread nD τ).loc main_arg2) ↦{fullShare} Vc main_arg2) ∗ (((c : Thread nD τ).loc main_v1) ↦{fullShare} Vc main_v1)) := by
  unfold Pipeline.arrBufs
  exact bigSep_eq_bigSepL_of_eq [main_arg1, main_v0, main_arg2, main_v1] (by decide) (by decide) _

/-- The share each window holds of its array: the two windows on the feature array hold half each. -/
theorem share_0 (c : Dev nD) : (dat V c).share 0 = fullShare := rfl
theorem share_1 (c : Dev nD) : (dat V c).share 1 = fullShare.left := rfl
theorem share_2 (c : Dev nD) : (dat V c).share 2 = fullShare.right := rfl
theorem share_3 (c : Dev nD) : (dat V c).share 3 = fullShare := rfl
theorem share_4 (c : Dev nD) : (dat V c).share 4 = fullShare := rfl

/-- The five windows' arrays, one by one, each the whole buffer behind it at the window's share. -/
theorem arrays_list (c : Dev nD) (Fn : (w : Fin cfg0.W) → Buf (Elt F) ((cfg0.win w).arr.view.loc (c : Thread nD τ))) :
    ((dat V c).arrays Fn : sProp 𝕄)
      = iprop((((c : Thread nD τ).loc main_arg1) ↦{fullShare} Fn 0) ∗ (((c : Thread nD τ).loc main_v0) ↦{fullShare.left} Fn 1)
          ∗ (((c : Thread nD τ).loc main_v0) ↦{fullShare.right} Fn 2) ∗ (((c : Thread nD τ).loc main_arg2) ↦{fullShare} Fn 3)
          ∗ (((c : Thread nD τ).loc main_v1) ↦{fullShare} Fn 4)) := by
  unfold Dat.arrays
  rw [bigSep_W0, (arr_whole0 0).set_eq_univ, (arr_whole0 1).set_eq_univ, (arr_whole0 3).set_eq_univ,
    (arr_whole0 4).set_eq_univ, share_0, share_1, share_2, share_3, share_4]

/-- ENTRY: the buffers behind the arrays, whole at the region's entry contents, are the windows' arrays at
    those contents — the feature array's buffer split into the two halves its two windows hold. -/
theorem arrays_of_arrBufs (c : Dev nD) :
    (Pipeline.arrBufs (Ix := Unit) (Name := ℕ) (U := UR sig nD τ) (Lvl := ℕ) spec0 c (V c) : sProp 𝕄)
      ⊢ (dat V c).arrays ((dat V c).arrAt · 0) := by
  rw [arrBufs_list, arrays_list]
  iintro ⟨H1, Hv0, H2, Hv1⟩
  ihave Hs := (pointsTo_share (PosShare.mem_left_op_right fullShare)).1 $$ Hv0
  icases Hs with ⟨HL, HR⟩
  isplitl [H1]; · iexact H1
  isplitl [HL]; · iexact HL
  isplitl [HR]; · iexact HR
  isplitl [H2]; · iexact H2
  iexact Hv1

/-- EXIT: the windows' arrays at what the region leaves — every input as it was found, the result at the folded
    write-backs — are the buffers behind them at any contents `V'` that has the result there and agrees with the
    entry contents at the three inputs' buffers; the feature array's two halves are joined. -/
theorem arrBufs_of_arrays (c : Dev nD) (V' : (b : Ref sig .tc) → Buf (Elt F) ((c : Thread nD τ).loc b))
    (h0 : V' main_arg1 = V c main_arg1) (h1 : V' main_v0 = V c main_v0) (h3 : V' main_arg2 = V c main_arg2)
    (h4 : V' main_v1 = (dat V c).arrAt 4 cfg0.N) :
    ((dat V c).arrays ((dat V c).arrAt · cfg0.N) : sProp 𝕄)
      ⊢ Pipeline.arrBufs (Ix := Unit) (Name := ℕ) (U := UR sig nD τ) (Lvl := ℕ) spec0 c V' := by
  rw [arrBufs_list, arrays_list, h0, h1, h3, h4,
    (dat V c).arrAt_in 0 rfl _, (dat V c).arrAt_in 1 rfl _, (dat V c).arrAt_in 2 rfl _, (dat V c).arrAt_in 3 rfl _]
  iintro ⟨H1, HL, HR, H2, Hv1⟩
  ihave Hv0 := (pointsTo_share (PosShare.mem_left_op_right fullShare)).2 $$ [HL HR]
  · isplitl [HL]; · iexact HL
    iexact HR
  isplitl [H1]; · iexact H1
  isplitl [Hv0]; · iexact Hv0
  isplitl [H2]; · iexact H2
  iexact Hv1

end Arrays

/-! ## The buffers' contents at each segment boundary -/

section Run

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first reshape: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the result's buffer at the folded write-backs, every other buffer as entered. -/
def W2 (c : Dev nD) : Valuation τ sig (Elt F) :=
  Function.update (W1 m ρ c) (Proc.devRef .tc main_v1) ((dat (V1 m ρ) c).arrAt 4 cfg0.N)
abbrev V2 : (c : Dev nD) → (b : Ref sig .tc) → Buf (Elt F) ((c : Thread nD τ).loc b) := fun c b => W2 m ρ c b
/-- After the second reshape: the end. -/
abbrev W3 : Dev nD → Valuation τ sig (Elt F) := fun c => StableHlo.after hostOps1 (W2 m ρ c)

theorem W2_v1 (c : Dev nD) : W2 m ρ c (Proc.devRef .tc main_v1) = (dat (V1 m ρ) c).arrAt 4 cfg0.N := by
  unfold W2; simp only [Function.update_self]

theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The first reshape writes only the batched features. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second reshape writes only the final result. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- Each argument reaches the end as launched. -/
theorem W3_arg (c : Dev nD) (b : Ref sig .tc) (h0 : b ≠ main_v0) (h1 : b ≠ main_v1) (h2 : b ≠ main_v2) :
    W3 m ρ c (Proc.devRef .tc b) = m ((c : Thread nD τ).loc b) :=
  (W3_of_ne m ρ c b h2).trans ((W2_of_ne m ρ c b h1).trans (W1_of_ne m ρ c b h0))

/-! ## The thread state and the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core
    owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

/-- A core's unscoped buffers at a valuation: the buffers behind the region's arrays and the rest. -/
theorem held_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec0 c (fun b => W b)
          ∗ Pipeline.unscopedRest (Ix := Unit) (Name := ℕ) (U := UR sig nD τ) (Lvl := ℕ) spec0 c (fun b => W b)) := by
  rw [← Pipeline.unscopedBufs_held]
  exact Pipeline.unscopedBufs_split₀ cfgs (0 : Fin 1) winFacts₀0.arr_unscoped c _

/-- The buffers no window stages are untouched by the region. -/
theorem rest_eq (c : Dev nD) :
    (Pipeline.unscopedRest (Ix := Unit) (Name := ℕ) (U := UR sig nD τ) (Lvl := ℕ) spec0 c (V1 m ρ c) : sProp 𝕄)
      = Pipeline.unscopedRest (Ix := Unit) (Name := ℕ) (U := UR sig nD τ) (Lvl := ℕ) spec0 c (V2 m ρ c) := by
  have h0 : V2 m ρ c main_arg0 = V1 m ρ c main_arg0 := W2_of_ne m ρ c main_arg0 (by decide)
  have h2 : V2 m ρ c main_v2 = V1 m ρ c main_v2 := W2_of_ne m ρ c main_v2 (by decide)
  rw [unscopedRest0_eq, unscopedRest0_eq, h0, h2]

set_option backward.isDefEq.respectTransparency.types false in
/-- THE REGION: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none, held_split]
    iintro ⟨⟨⟨Hab, Hrest⟩, Hp, HO⟩, -, -⟩
    ihave Ha := (arrays_of_arrBufs (V1 m ρ) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : ((pdats m ρ 0 c).arrays ((pdats m ρ 0 c).arrAt · (Pipeline.pin (pcfgs (F := F)) adm 0).N) : sProp 𝕄)
        ⊢ Pipeline.arrBufs (Ix := Unit) (Name := ℕ) (U := UR sig nD τ) (Lvl := ℕ) spec0 c (V2 m ρ c) :=
      arrBufs_of_arrays (V1 m ρ) c (V2 m ρ c) (W2_of_ne m ρ c main_arg1 (by decide)) (W2_of_ne m ρ c main_v0 (by decide))
        (W2_of_ne m ρ c main_arg2 (by decide)) (W2_v1 m ρ c)
    rw [held_split, rest_eq]
    iintro ⟨Ha, HO, HY, Hrest⟩
    ihave Hab := hjoin $$ Ha
    imodintro
    isplitl [Hab Hrest]
    · isplitl [Hab]; · iexact Hab
      iexact Hrest
    isplitl [HY]; · iexact HY
    unfold Pipeline.Dat.owesAt Pipeline.owesWithin
    icases HO with ⟨%W, -, HO⟩; iexists W; iexact HO

/-- The program's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show (iprop(StableHlo.held (c : Thread nD τ) (Pipeline.ucRefs τ sig) (W3 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run, read at the four buffers the claims speak of: the final result at the last boundary's contents, each
    argument as launched (no segment writes an argument). -/
theorem frame : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c _ (mem_uc main_v2 (by decide)),
      (h c _ (mem_uc main_arg0 (by decide))).trans (W3_arg m ρ c main_arg0 (by decide) (by decide) (by decide)),
      (h c _ (mem_uc main_arg1 (by decide))).trans (W3_arg m ρ c main_arg1 (by decide) (by decide) (by decide)),
      (h c _ (mem_uc main_arg2 (by decide))).trans (W3_arg m ρ c main_arg2 (by decide) (by decide) (by decide))⟩)
    (run_main m ρ)

end Run

end Cert.KernelIdeal.Frm

end
-- ==== Proof.PayIdeal.lean ====
/-
  The value the kernel body stores, read at one entry.

  The body forms the product of the staged adjacency rows (512 × 2048) with the staged features of the batch
  (2048 × 32), adds the staged features of the same 512 rows, and multiplies the sum by the weight matrix
  (32 × 32). At row `r` and output channel `o` this is
  `∑ k, ((∑ j, a r j * xs j k) + xr r k) * w k o`: each matrix product into a zero accumulator is the plain sum
  over its one contracted axis, and the changes of shape only add or drop a leading axis of extent one.
-/
import proofs.«140792_g20993800142880_cont_8to1_1634_6_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## The first product: rows of the adjacency against the batch's features -/

theorem mm1_l0 (i : S512x32.Idx) (q : dot_S512x2048_S2048x32_S512x32_1_0_0_1_n_n.contr.Idx) : (dot_S512x2048_S2048x32_S512x32_1_0_0_1_n_n.lhsIdx i q 0).val = (i 0).val := by
  unfold DotDims.lhsIdx
  rw [dif_neg (show ¬(0 : Fin S512x2048.rank) ∈ dot_S512x2048_S2048x32_S512x32_1_0_0_1_n_n.lhsBatch by decide), dif_pos (show (0 : Fin S512x2048.rank) ∈ dot_S512x2048_S2048x32_S512x32_1_0_0_1_n_n.lhsNonContracting by decide)]
  rfl
theorem mm1_l1 (i : S512x32.Idx) (q : dot_S512x2048_S2048x32_S512x32_1_0_0_1_n_n.contr.Idx) : (dot_S512x2048_S2048x32_S512x32_1_0_0_1_n_n.lhsIdx i q 1).val = (q ⟨0, by decide⟩).val :=
  dot_S512x2048_S2048x32_S512x32_1_0_0_1_n_n.lhsIdx_val_of_single rfl i q
theorem mm1_r0 (i : S512x32.Idx) (q : dot_S512x2048_S2048x32_S512x32_1_0_0_1_n_n.contr.Idx) : (dot_S512x2048_S2048x32_S512x32_1_0_0_1_n_n.rhsIdx i q 0).val = (q ⟨0, by decide⟩).val :=
  dot_S512x2048_S2048x32_S512x32_1_0_0_1_n_n.rhsIdx_val_of_single rfl i q
theorem mm1_r1 (i : S512x32.Idx) (q : dot_S512x2048_S2048x32_S512x32_1_0_0_1_n_n.contr.Idx) : (dot_S512x2048_S2048x32_S512x32_1_0_0_1_n_n.rhsIdx i q 1).val = (i 1).val := by
  unfold DotDims.rhsIdx
  rw [dif_neg (show ¬(1 : Fin S2048x32.rank) ∈ dot_S512x2048_S2048x32_S512x32_1_0_0_1_n_n.rhsBatch by decide), dif_pos (show (1 : Fin S2048x32.rank) ∈ dot_S512x2048_S2048x32_S512x32_1_0_0_1_n_n.rhsNonContracting by decide)]
  rfl

/-- Entry `(r, k)` of the first product is the sum over the 2048 columns of the adjacency row. -/
theorem mm1_apply (a : FVec Ideal S512x2048 .f32) (b : FVec Ideal S2048x32 .f32) (r : Fin 512) (k : Fin 32) :
    matmul dot_S512x2048_S2048x32_S512x32_1_0_0_1_n_n none a b (constant (F := Ideal) S512x32 .f32 0x00000000#32) (ix2 r k)
      = ∑ j : Fin 2048, a (ix2 r j) * b (ix2 j k) := by
  simp only [matmul]
  rw [Ideal.matmul_constant_zero_apply, ← Equiv.sum_comp (contrEquiv1 dot_S512x2048_S2048x32_S512x32_1_0_0_1_n_n 2048 rfl rfl).symm]
  refine Finset.sum_congr rfl fun j _ => ?_
  have hk := contrEquiv1_symm_val dot_S512x2048_S2048x32_S512x32_1_0_0_1_n_n 2048 rfl rfl j
  have el : dot_S512x2048_S2048x32_S512x32_1_0_0_1_n_n.lhsIdx (ix2 r k) ((contrEquiv1 dot_S512x2048_S2048x32_S512x32_1_0_0_1_n_n 2048 rfl rfl).symm j) = ix2 r j := funext fun a => Fin.ext (by
    match a with
    | ⟨0, _⟩ => exact mm1_l0 _ _
    | ⟨1, _⟩ => exact (mm1_l1 _ _).trans hk)
  have er : dot_S512x2048_S2048x32_S512x32_1_0_0_1_n_n.rhsIdx (ix2 r k) ((contrEquiv1 dot_S512x2048_S2048x32_S512x32_1_0_0_1_n_n 2048 rfl rfl).symm j) = ix2 j k := funext fun a => Fin.ext (by
    match a with
    | ⟨0, _⟩ => exact (mm1_r0 _ _).trans hk
    | ⟨1, _⟩ => exact mm1_r1 _ _)
  rw [el, er]

/-! ## The second product: the summed features against the weights -/

theorem mm2_l0 (i : S512x32.Idx) (q : dot_S512x32_S32x32_S512x32_1_0_0_1_n_n.contr.Idx) : (dot_S512x32_S32x32_S512x32_1_0_0_1_n_n.lhsIdx i q 0).val = (i 0).val := by
  unfold DotDims.lhsIdx
  rw [dif_neg (show ¬(0 : Fin S512x32.rank) ∈ dot_S512x32_S32x32_S512x32_1_0_0_1_n_n.lhsBatch by decide), dif_pos (show (0 : Fin S512x32.rank) ∈ dot_S512x32_S32x32_S512x32_1_0_0_1_n_n.lhsNonContracting by decide)]
  rfl
theorem mm2_l1 (i : S512x32.Idx) (q : dot_S512x32_S32x32_S512x32_1_0_0_1_n_n.contr.Idx) : (dot_S512x32_S32x32_S512x32_1_0_0_1_n_n.lhsIdx i q 1).val = (q ⟨0, by decide⟩).val :=
  dot_S512x32_S32x32_S512x32_1_0_0_1_n_n.lhsIdx_val_of_single rfl i q
theorem mm2_r0 (i : S512x32.Idx) (q : dot_S512x32_S32x32_S512x32_1_0_0_1_n_n.contr.Idx) : (dot_S512x32_S32x32_S512x32_1_0_0_1_n_n.rhsIdx i q 0).val = (q ⟨0, by decide⟩).val :=
  dot_S512x32_S32x32_S512x32_1_0_0_1_n_n.rhsIdx_val_of_single rfl i q
theorem mm2_r1 (i : S512x32.Idx) (q : dot_S512x32_S32x32_S512x32_1_0_0_1_n_n.contr.Idx) : (dot_S512x32_S32x32_S512x32_1_0_0_1_n_n.rhsIdx i q 1).val = (i 1).val := by
  unfold DotDims.rhsIdx
  rw [dif_neg (show ¬(1 : Fin S32x32.rank) ∈ dot_S512x32_S32x32_S512x32_1_0_0_1_n_n.rhsBatch by decide), dif_pos (show (1 : Fin S32x32.rank) ∈ dot_S512x32_S32x32_S512x32_1_0_0_1_n_n.rhsNonContracting by decide)]
  rfl

/-- Entry `(r, o)` of the second product is the sum over the 32 input channels. -/
theorem mm2_apply (a : FVec Ideal S512x32 .f32) (b : FVec Ideal S32x32 .f32) (r : Fin 512) (o : Fin 32) :
    matmul dot_S512x32_S32x32_S512x32_1_0_0_1_n_n none a b (constant (F := Ideal) S512x32 .f32 0x00000000#32) (ix2 r o)
      = ∑ k : Fin 32, a (ix2 r k) * b (ix2 k o) := by
  simp only [matmul]
  rw [Ideal.matmul_constant_zero_apply, ← Equiv.sum_comp (contrEquiv1 dot_S512x32_S32x32_S512x32_1_0_0_1_n_n 32 rfl rfl).symm]
  refine Finset.sum_congr rfl fun k _ => ?_
  have hk := contrEquiv1_symm_val dot_S512x32_S32x32_S512x32_1_0_0_1_n_n 32 rfl rfl k
  have el : dot_S512x32_S32x32_S512x32_1_0_0_1_n_n.lhsIdx (ix2 r o) ((contrEquiv1 dot_S512x32_S32x32_S512x32_1_0_0_1_n_n 32 rfl rfl).symm k) = ix2 r k := funext fun a => Fin.ext (by
    match a with
    | ⟨0, _⟩ => exact mm2_l0 _ _
    | ⟨1, _⟩ => exact (mm2_l1 _ _).trans hk)
  have er : dot_S512x32_S32x32_S512x32_1_0_0_1_n_n.rhsIdx (ix2 r o) ((contrEquiv1 dot_S512x32_S32x32_S512x32_1_0_0_1_n_n 32 rfl rfl).symm k) = ix2 k o := funext fun a => Fin.ext (by
    match a with
    | ⟨0, _⟩ => exact (mm2_r0 _ _).trans hk
    | ⟨1, _⟩ => exact mm2_r1 _ _)
  rw [el, er]

/-! ## The stored value at an entry -/

/-- The body's stored value at row `r` and output channel `o` of its block, from the four loaded blocks. -/
theorem pay_apply (x0 : Vec Ideal S1x512x2048 .f32) (x1 : Vec Ideal S1x2048x32 .f32) (x2 : Vec Ideal S1x512x32 .f32)
    (x3 : Vec Ideal S32x32 .f32) (r : Fin 512) (o : Fin 32) :
    k0_pay1 x0 x1 x2 x3 (ix3 (0 : Fin 1) r o)
      = ∑ k : Fin 32, ((∑ j : Fin 2048, x0 (ix3 (0 : Fin 1) r j) * x1 (ix3 (0 : Fin 1) j k)) + x2 (ix3 (0 : Fin 1) r k)) * x3 (ix2 k o) := by
  unfold k0_pay1
  refine (shapeCast_ab_1ab_apply _ _ (0 : Fin 1) r o).trans ?_
  refine (mm2_apply _ _ r o).trans ?_
  refine Finset.sum_congr rfl fun k _ => congrArg (· * x3 (ix2 k o)) ?_
  refine congrArg₂ (· + ·) ?_ (shapeCast_1ab_ab_apply x2 _ r k)
  refine (mm1_apply _ _ r k).trans ?_
  exact Finset.sum_congr rfl fun j _ => congrArg₂ (· * ·) (shapeCast_1ab_ab_apply x0 _ r j) (shapeCast_1ab_ab_apply x1 _ j k)

end Cert.KernelIdeal.Val

end
-- ==== Proof.Spec.lean ====
/-
  The mathematics both programs compute, stated once over the argument arrays and free of either program.

  The node features `x` are 16 batches of 2048 nodes with 32 channels each, stored as 32768 rows; row
  `b * 2048 + r` is node `r` of batch `b`. For each batch the adjacency `adj b` is a 2048 × 2048 matrix.
  The aggregated feature of node `r` of batch `b` in channel `k` is `∑ j, adj b r j * x (b, j) k`.

  One program adds the node's own features to the aggregate and then projects with `W`
  (`fused`); the other projects the node's own features and the aggregate separately and adds the two
  projections (`split`). On real numbers these agree by distributivity of the product over the sum; on the
  extended reals that law needs every term finite, which is what `fused_eq_split` assumes.
-/
import Idealize.ShloMosaic.PureOps.Ideal
import Idealize.ShloMosaic.Lib.ValueIdx

noncomputable section

namespace Cert.Sage

open Idealize.ShloMosaic Idealize.ShloMosaic.ValueIdx

/-- The shapes of the three arguments and of the result. -/
abbrev SX : Shape := ⟨2, ![32768, 32]⟩
abbrev SA : Shape := ⟨3, ![16, 2048, 2048]⟩
abbrev SW : Shape := ⟨2, ![32, 32]⟩

/-- Row `b * 2048 + r` of the feature matrix: node `r` of batch `b`. -/
def row (b : Fin 16) (r : Fin 2048) : Fin 32768 := ⟨b.val * 2048 + r.val, by have := b.isLt; have := r.isLt; omega⟩

/-- The batch and the node of a row. -/
def batchOf (n : Fin 32768) : Fin 16 := ⟨n.val / 2048, by have := n.isLt; omega⟩
def nodeOf (n : Fin 32768) : Fin 2048 := ⟨n.val % 2048, Nat.mod_lt _ (by norm_num)⟩

theorem row_batch_node (n : Fin 32768) : row (batchOf n) (nodeOf n) = n :=
  Fin.ext (by simp only [row, batchOf, nodeOf]; omega)

theorem batchOf_row (b : Fin 16) (r : Fin 2048) : batchOf (row b r) = b :=
  Fin.ext (by have := r.isLt; simp only [row, batchOf]; omega)

theorem nodeOf_row (b : Fin 16) (r : Fin 2048) : nodeOf (row b r) = r :=
  Fin.ext (by have := r.isLt; simp only [row, nodeOf]; omega)

variable (x : SX.Idx → EReal) (adj : SA.Idx → EReal) (W : SW.Idx → EReal)

/-- The neighbourhood aggregate of node `r` of batch `b` in channel `k`. -/
def agg (b : Fin 16) (r : Fin 2048) (k : Fin 32) : EReal :=
  ∑ j : Fin 2048, adj (ix3 b r j) * x (ix2 (row b j) k)

/-- Add the node's own features to the aggregate, then project. -/
def fused (b : Fin 16) (r : Fin 2048) (o : Fin 32) : EReal :=
  ∑ k : Fin 32, (agg x adj b r k + x (ix2 (row b r) k)) * W (ix2 k o)

/-- Project the node's own features and the aggregate separately, then add. -/
def split (b : Fin 16) (r : Fin 2048) (o : Fin 32) : EReal :=
  (∑ k : Fin 32, x (ix2 (row b r) k) * W (ix2 k o)) + ∑ k : Fin 32, agg x adj b r k * W (ix2 k o)

/-- The result array of the first form: entry `(n, o)` is `fused` at the batch and node of row `n`. -/
def fusedArr : SX.Idx → EReal := fun i => fused x adj W (batchOf (i 0)) (nodeOf (i 0)) (i 1)

/-- The result array of the second form. -/
def splitArr : SX.Idx → EReal := fun i => split x adj W (batchOf (i 0)) (nodeOf (i 0)) (i 1)

end Cert.Sage

end
-- ==== Proof.ValueIdeal.lean ====
/-
  From the blocks the grid points write back to the whole result array.

  Grid point `t = (b, i)` writes back rows `512 i … 512 i + 511` of batch `b` of the result, and the value it
  writes at row `r` and channel `o` depends only on the adjacency row `(b, r)`, on the features of batch `b`, and on
  the weights. So every point writes its block of ONE function of the three arrays, `blockFn`; the 64 blocks tile
  the result, hence the result array is that function.
-/
import proofs.«140792_g20993800142880_cont_8to1_1634_6_alg».proof.Proof.RunIdeal
import proofs.«140792_g20993800142880_cont_8to1_1634_6_alg».proof.Proof.PayIdeal
import proofs.«140792_g20993800142880_cont_8to1_1634_6_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx Idealize.ShloMosaic.StableHlo
open Idealize.ShloMosaic.Pipeline (Dat)

/-- The result over batched features: entry `(b, r, o)` from adjacency row `(b, r)`, the features of batch `b` and
    the weights. -/
def blockFn (adj : S16x2048x2048.Idx → EReal) (xb : S16x2048x32.Idx → EReal) (W : S32x32.Idx → EReal) : S16x2048x32.Idx → EReal :=
  fun i => ∑ k : Fin 32, ((∑ j : Fin 2048, adj (ix3 (i 0) (i 1) j) * xb (ix3 (i 0) j k)) + xb (ix3 (i 0) (i 1) k)) * W (ix2 k (i 2))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the adjacency and row-feature windows move with the result's window,
    the batch-feature window follows its batch only, the weights' window stays put. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 2) = 0 ∧ win0_3.index t (1 : Fin 2) = 0
    ∧ win0_4.index t (0 : Fin 3) ≤ 15 ∧ win0_4.index t (1 : Fin 3) ≤ 3 ∧ win0_4.index t (2 : Fin 3) = 0 :=
  (by decide +kernel : ∀ t : Fin grid0.N, _)

/-- Every block of the result is some point's. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

section Blocks

variable (V : (c : Dev nD) → (b : Ref sig .tc) → Buf (Elt Ideal) ((c : Thread nD τ).loc b))

/-- WHAT POINT `t` WRITES BACK is block `t` of `blockFn` of the arrays as the region finds them. -/
theorem flushed_eq (c : Dev nD) (t : Fin cfg0.N) :
    (dat V c).flushed 4 t = ((cfg0.win 4).blk t).view.read (Elt Ideal) (blockFn (V c main_arg1) (V c main_v0) (V c main_arg2)) := by
  show (cfg0.win 4).cut (grid0.coords t) ((dat V c).after 4 t) = _
  rw [after_4]
  unfold outBlk
  rw [View.canon_unit_zero hz3]
  simp only [View.ld_unit_zero (S := S1x512x2048) hz3, View.ld_unit_zero (S := S1x2048x32) hz3, View.ld_unit_zero (S := S1x512x32) hz3,
    View.ld_unit_zero (S := S32x32) hz2]
  funext y
  obtain ⟨u, r, o, rfl⟩ : ∃ (u : Fin 1) (r : Fin 512) (o : Fin 32), y = ix3 u r o := ⟨y 0, y 1, y 2, eq_ix3 y⟩
  obtain rfl : u = 0 := Subsingleton.elim _ _
  refine (show _ = k0_pay1 (iblk V c 0 t) (iblk V c 1 t) (iblk V c 2 t) (iblk V c 3 t) (ix3 (0 : Fin 1) r o) from rfl).trans ?_
  refine (pay_apply _ _ _ _ r o).trans ?_
  obtain ⟨e00, e01, e02, e10, e11, e12, e20, e21, e22, e30, e31, b0, b1, e42⟩ := idx_facts t
  show _ = blockFn (V c main_arg1) (V c main_v0) (V c main_arg2) (((cfg0.win 4).blk t).view.emb (ix3 (0 : Fin 1) r o))
  unfold blockFn
  refine Finset.sum_congr rfl fun k _ => ?_
  refine congrArg₂ (· * ·) (congrArg₂ (· + ·) (Finset.sum_congr rfl fun j _ => congrArg₂ (· * ·) ?_ ?_) ?_) ?_
  · -- the adjacency block's row `r`, column `j` is the array's row `512 i + r` of batch `b`
    show V c main_arg1 (((cfg0.win 0).blk t).view.emb (ix3 (0 : Fin 1) r j)) = V c main_arg1 _
    refine congrArg _ (funext fun a => Fin.ext ?_)
    match a with
    | ⟨0, _⟩ => show win0_0.index t (0 : Fin 3) * 1 + 1 * 0 = win0_4.index t (0 : Fin 3) * 1 + 1 * 0; omega
    | ⟨1, _⟩ => show win0_0.index t (1 : Fin 3) * 512 + 1 * r.val = win0_4.index t (1 : Fin 3) * 512 + 1 * r.val; omega
    | ⟨2, _⟩ => show win0_0.index t (2 : Fin 3) * 2048 + 1 * j.val = j.val; omega
  · -- the batch-feature block is all of batch `b`
    show V c main_v0 (((cfg0.win 1).blk t).view.emb (ix3 (0 : Fin 1) j k)) = V c main_v0 _
    refine congrArg _ (funext fun a => Fin.ext ?_)
    match a with
    | ⟨0, _⟩ => show win0_1.index t (0 : Fin 3) * 1 + 1 * 0 = win0_4.index t (0 : Fin 3) * 1 + 1 * 0; omega
    | ⟨1, _⟩ => show win0_1.index t (1 : Fin 3) * 2048 + 1 * j.val = j.val; omega
    | ⟨2, _⟩ => show win0_1.index t (2 : Fin 3) * 32 + 1 * k.val = k.val; omega
  · -- the row-feature block's row `r` is the array's row `512 i + r` of batch `b`
    show V c main_v0 (((cfg0.win 2).blk t).view.emb (ix3 (0 : Fin 1) r k)) = V c main_v0 _
    refine congrArg _ (funext fun a => Fin.ext ?_)
    match a with
    | ⟨0, _⟩ => show win0_2.index t (0 : Fin 3) * 1 + 1 * 0 = win0_4.index t (0 : Fin 3) * 1 + 1 * 0; omega
    | ⟨1, _⟩ => show win0_2.index t (1 : Fin 3) * 512 + 1 * r.val = win0_4.index t (1 : Fin 3) * 512 + 1 * r.val; omega
    | ⟨2, _⟩ => show win0_2.index t (2 : Fin 3) * 32 + 1 * k.val = k.val; omega
  · -- the weights' block is the whole matrix
    show V c main_arg2 (((cfg0.win 3).blk t).view.emb (ix2 k o)) = V c main_arg2 _
    refine congrArg _ (funext fun a => Fin.ext ?_)
    match a with
    | ⟨0, _⟩ => show win0_3.index t (0 : Fin 2) * 32 + 1 * k.val = k.val; omega
    | ⟨1, _⟩ => show win0_3.index t (1 : Fin 2) * 32 + 1 * o.val = win0_4.index t (2 : Fin 3) * 32 + 1 * o.val; omega

/-- An index of the result is in point `t`'s block iff each coordinate is in the block's range on its axis. -/
theorem mem_blk (t : Fin cfg0.N) (i : S16x2048x32.Idx) :
    i ∈ ((cfg0.win 4).blk t).view.set ↔ ∀ a : Fin 3, win0_4.index t a * S1x512x32.size a ≤ (i a).val ∧ (i a).val < win0_4.index t a * S1x512x32.size a + S1x512x32.size a := by
  show i ∈ ((View.whole main_v1).slice (win0_4.rect t)).set ↔ _
  rw [View.set_slice_whole, Rect.mem_set_unit]
  exact Iff.rfl

/-- The blocks tile the result: row `r` of batch `b` lies in the block of the point `(b, r / 512)`. -/
theorem cover (i : S16x2048x32.Idx) : ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 32 := (i 2).isLt
  obtain ⟨t, ht⟩ := idx_onto ⟨(i 0).val, h0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 32 ≤ (i 2).val ∧ (i 2).val < win0_4.index t (2 : Fin 3) * 32 + 32; omega

/-- THE RESULT ARRAY after the region is `blockFn` of the three arrays as the region finds them. -/
theorem final_v1 (c : Dev nD) :
    (dat V c).arrAt 4 cfg0.N = blockFn (V c main_arg1) (V c main_v0) (V c main_arg2) :=
  (dat V c).arrAt_eq_of_cover 4 _ (fun t _ => flushed_eq V c t) cover

end Blocks

/-! ## The two reshapes around the region, and the result in terms of the arguments -/

/-- The batched features at `(b, j, k)` are row `b * 2048 + j` of the feature matrix at channel `k`. -/
theorem batched_apply (x : S32768x32.Idx → EReal) (b : Fin 16) (j : Fin 2048) (k : Fin 32) :
    shapeCast S16x2048x32 x shapeCasts_S32768x32_S16x2048x32 (ix3 b j k) = x (ix2 (Cert.Sage.row b j) k) :=
  shapeCast_apply x _ _ _ (by
    rw [Shape.rowMajor_val_two, Shape.rowMajor_val_three]
    show (b.val * 2048 + j.val) * 32 + k.val = (b.val * 2048 + j.val) * 32 + k.val
    rfl)

/-- The final result at `(n, o)` is the batched result at the batch and node of row `n`. -/
theorem rows_apply (y : S16x2048x32.Idx → EReal) (i : S32768x32.Idx) :
    shapeCast S32768x32 y shapeCasts_S16x2048x32_S32768x32 i = y (ix3 (Cert.Sage.batchOf (i 0)) (Cert.Sage.nodeOf (i 0)) (i 1)) :=
  shapeCast_apply y _ _ _ (by
    rw [Shape.rowMajor_val_three, Shape.rowMajor_val_two]
    have h0 : (i 0).val < 32768 := (i 0).isLt
    show ((i 0).val / 2048 * 2048 + (i 0).val % 2048) * 32 + (i 1).val = (i 0).val * 32 + (i 1).val
    omega)

/-- `blockFn` over the batched features, read back row by row, is the fused form of the specification. -/
theorem blockFn_rows (x : S32768x32.Idx → EReal) (adj : S16x2048x2048.Idx → EReal) (W : S32x32.Idx → EReal) :
    shapeCast S32768x32 (blockFn adj (shapeCast S16x2048x32 x shapeCasts_S32768x32_S16x2048x32) W) shapeCasts_S16x2048x32_S32768x32
      = Cert.Sage.fusedArr x adj W := by
  funext i
  rw [rows_apply]
  unfold blockFn Cert.Sage.fusedArr Cert.Sage.fused Cert.Sage.agg
  refine Finset.sum_congr rfl fun k _ => ?_
  refine congrArg₂ (· * ·) (congrArg₂ (· + ·) (Finset.sum_congr rfl fun j _ => congrArg₂ (· * ·) rfl ?_) ?_) rfl
  · exact batched_apply x _ j k
  · exact batched_apply x _ _ k

section Result

variable (m : (ℓ : Loc nD τ sig) → Buf (Elt Ideal) ℓ) (ρ : Dev nD → PrngReg)

/-- The first reshape's result is the feature matrix cut into batches. -/
theorem V1_v0 (c : Dev nD) :
    (V1 m ρ c main_v0 : S16x2048x32.Idx → EReal)
      = shapeCast S16x2048x32 (m ((c : Thread nD τ).loc main_arg0)) shapeCasts_S32768x32_S16x2048x32 := by
  dsimp only [V1, W1, hostOps0]; after_results; rfl

/-- The second reshape's result is the region's result read back row by row. -/
theorem W3_v2 (c : Dev nD) :
    (W3 m ρ c (Proc.devRef .tc main_v2) : S32768x32.Idx → EReal)
      = shapeCast S32768x32 (W2 m ρ c (Proc.devRef .tc main_v1)) shapeCasts_S16x2048x32_S32768x32 := by
  dsimp only [W3, hostOps1]; after_results; rfl

/-- THE RESULT: the final array is the fused form of the specification at the three arguments as launched. -/
theorem result_eq (c : Dev nD) :
    (W3 m ρ c (Proc.devRef .tc main_v2) : S32768x32.Idx → EReal)
      = Cert.Sage.fusedArr (m ((c : Thread nD τ).loc main_arg0)) (m ((c : Thread nD τ).loc main_arg1)) (m ((c : Thread nD τ).loc main_arg2)) := by
  rw [W3_v2, W2_v1, final_v1, V1_v0]
  have h1 : V1 m ρ c main_arg1 = m ((c : Thread nD τ).loc main_arg1) := W1_of_ne m ρ c main_arg1 (by decide)
  have h2 : V1 m ρ c main_arg2 = m ((c : Thread nD τ).loc main_arg2) := W1_of_ne m ρ c main_arg2 (by decide)
  rw [h1, h2]
  exact blockFn_rows _ _ _

end Result

end Cert.KernelIdeal.Val

end
-- ==== Proof.Algebra.lean ====
/-
  The algebraic law behind the two forms of the result: on finite entries, projecting the sum of the
  aggregate and the node's own features equals the sum of the two projections.

  Every entry of the three arrays is assumed to be a real number. The aggregate is then a finite sum of
  products of reals, hence a real; and over the reals `(a + y) * w = a * w + y * w`, which summed over
  the channel gives the law (the two sums appear in the other order in `split`, hence the commutation).
-/
import proofs.«140792_g20993800142880_cont_8to1_1634_6_alg».proof.Proof.Spec

noncomputable section

namespace Cert.Sage

open Idealize.ShloMosaic Idealize.ShloMosaic.ValueIdx

/-- A finite sum of coerced reals is the coercion of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

variable (x : SX.Idx → EReal) (adj : SA.Idx → EReal) (W : SW.Idx → EReal)

/-- On finite entries the aggregate is a real number. -/
theorem agg_real (hx : ∀ i, ∃ r : ℝ, x i = (r : EReal)) (hadj : ∀ i, ∃ r : ℝ, adj i = (r : EReal))
    (b : Fin 16) (r : Fin 2048) (k : Fin 32) : ∃ a : ℝ, agg x adj b r k = (a : EReal) := by
  choose xr hxr using hx
  choose ar har using hadj
  refine ⟨∑ j : Fin 2048, ar (ix3 b r j) * xr (ix2 (row b j) k), ?_⟩
  unfold agg
  rw [← coe_finset_sum]
  refine Finset.sum_congr rfl (fun j _ => ?_)
  rw [har, hxr, EReal.coe_mul]

/-- The law at one entry. -/
theorem fused_eq_split (hx : ∀ i, ∃ r : ℝ, x i = (r : EReal)) (hadj : ∀ i, ∃ r : ℝ, adj i = (r : EReal))
    (hW : ∀ i, ∃ r : ℝ, W i = (r : EReal)) (b : Fin 16) (r : Fin 2048) (o : Fin 32) :
    fused x adj W b r o = split x adj W b r o := by
  have hagg := fun k => agg_real x adj hx hadj b r k
  choose gr hgr using hagg
  choose xr hxr using hx
  choose wr hwr using hW
  unfold fused split
  have h1 : ∀ k : Fin 32, (agg x adj b r k + x (ix2 (row b r) k)) * W (ix2 k o)
      = ((gr k * wr (ix2 k o) + xr (ix2 (row b r) k) * wr (ix2 k o) : ℝ) : EReal) := by
    intro k
    rw [hgr, hxr, hwr, ← EReal.coe_add, ← EReal.coe_mul, add_mul]
  have h2 : ∀ k : Fin 32, x (ix2 (row b r) k) * W (ix2 k o)
      = ((xr (ix2 (row b r) k) * wr (ix2 k o) : ℝ) : EReal) := by
    intro k
    rw [hxr, hwr, ← EReal.coe_mul]
  have h3 : ∀ k : Fin 32, agg x adj b r k * W (ix2 k o) = ((gr k * wr (ix2 k o) : ℝ) : EReal) := by
    intro k
    rw [hgr, hwr, ← EReal.coe_mul]
  simp only [h1, h2, h3]
  rw [coe_finset_sum, coe_finset_sum, coe_finset_sum, ← EReal.coe_add, Finset.sum_add_distrib, add_comm]

/-- The law for the two result arrays. -/
theorem fusedArr_eq_splitArr (hx : ∀ i, ∃ r : ℝ, x i = (r : EReal))
    (hadj : ∀ i, ∃ r : ℝ, adj i = (r : EReal)) (hW : ∀ i, ∃ r : ℝ, W i = (r : EReal)) :
    fusedArr x adj W = splitArr x adj W := by
  funext i
  exact fused_eq_split x adj W hx hadj hW _ _ _

end Cert.Sage

end
-- ==== Proof.Finite.lean ====
/-
  From the precondition to finiteness of every entry.

  The precondition compares the absolute value of every entry of each of the three argument arrays with
  `+∞`, takes the conjunction over each array, and then the conjunction of the three results. If the
  result is `1`, every comparison came out `1`, so every entry `x` has `max x (-x) < ⊤`; an extended real
  with that property is neither `⊤` nor `⊥`, hence a real number.
-/
import proofs.«140792_g20993800142880_cont_8to1_1634_6_alg».proof.Pre_finite_inputs
import Idealize.ShloMosaic.Lib.ReduceAll
import Idealize.ShloMosaic.Lib.ValueIdx
import Idealize.ShloMosaic.PureOps.Ideal.Laws

noncomputable section

namespace Cert.Sage

open Idealize.ShloMosaic Idealize.ShloMosaic.ValueIdx

/-- The shape with no axes has exactly one index. -/
instance : Subsingleton Cert.Pre_finite_inputs.S_.Idx := ⟨fun a b => funext fun d => d.elim0⟩

/-- An extended real whose absolute value lies strictly below the word of `+∞` is a real number. -/
theorem real_of_abs_lt_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- If the precondition holds of three arrays, every entry of each is a real number. -/
theorem finite_of_pre [Cert.Pre_finite_inputs.Facts]
    (a0 : FVec Ideal Cert.Pre_finite_inputs.S32768x32 .f32)
    (a1 : FVec Ideal Cert.Pre_finite_inputs.S16x2048x2048 .f32)
    (a2 : FVec Ideal Cert.Pre_finite_inputs.S32x32 .f32)
    (h : Cert.Pre_finite_inputs.fn (F := Ideal) a0 a1 a2 = fun _ => 1#1) :
    (∀ i, ∃ r : ℝ, a0 i = (r : EReal)) ∧ (∀ i, ∃ r : ℝ, a1 i = (r : EReal))
      ∧ (∀ i, ∃ r : ℝ, a2 i = (r : EReal)) := by
  have h0 := congrFun h ix0
  dsimp only [Cert.Pre_finite_inputs.fn] at h0
  obtain ⟨h01, hc⟩ := IntOp.andi_eq_one.1 h0
  obtain ⟨ha, hb⟩ := IntOp.andi_eq_one.1 h01
  refine ⟨fun i => ?_, fun i => ?_, fun i => ?_⟩
  · exact real_of_abs_lt_inf _ (Host.reduce_andi_all _ _ _ _ _ ha i)
  · exact real_of_abs_lt_inf _ (Host.reduce_andi_all _ _ _ _ _ hb i)
  · exact real_of_abs_lt_inf _ (Host.reduce_andi_all _ _ _ _ _ hc i)

end Cert.Sage

end
-- ==== Proof.RefValue.lean ====
/-
  The reference computes the second form of the result.

  The reference projects the node features with `W`, aggregates the features batch by batch with the
  adjacency, projects the aggregate with `W`, and adds the two projections; in between it reshapes the
  32768 rows into 16 batches of 2048 nodes and back. Read at an entry `(n, o)`, every reshape sends row
  `n` to batch `n / 2048`, node `n % 2048` and back to row `n`, so the entry is
  `∑ k, x (n, k) * W (k, o) + ∑ k, (∑ j, adj (b, r, j) * x (b * 2048 + j, k)) * W (k, o)` with `b`, `r` the
  batch and the node of row `n`: the entry of `splitArr`.
-/
import proofs.«140792_g20993800142880_cont_8to1_1634_6_alg».proof.Proof.Spec
import proofs.«140792_g20993800142880_cont_8to1_1634_6_alg».proof.Proof.Gen.ReferenceIdeal.Read

noncomputable section

namespace Cert.Sage.Ref

open Idealize.ShloMosaic Idealize.ShloMosaic.ValueIdx Cert.ReferenceIdeal Cert.ReferenceIdeal.Read Cert.Sage

/-! ## The index maps of the reshapes and the contractions, by coordinates -/

/-- Rows to batches and nodes and back is the identity (the reshape before the first projection's use). -/
theorem idx1_idx8 (i : S32768x32.Idx) : idx_main_v1 (idx_main_v8 i) = i := by
  funext a
  refine Fin.ext ?_
  have h0 : (i 0).val < 32768 := (i 0).isLt
  have h1 : (i 1).val < 32 := (i 1).isLt
  match a with
  | ⟨0, _⟩ =>
    show ((((i 0).val * 32 + (i 1).val) / 65536 * 2048 + ((i 0).val * 32 + (i 1).val) / 32 % 2048) * 32
      + ((i 0).val * 32 + (i 1).val) % 32) / 32 = (i 0).val
    omega
  | ⟨1, _⟩ =>
    show ((((i 0).val * 32 + (i 1).val) / 65536 * 2048 + ((i 0).val * 32 + (i 1).val) / 32 % 2048) * 32
      + ((i 0).val * 32 + (i 1).val) % 32) % 32 = (i 1).val
    omega

/-- The same for the reshape of the second projection. -/
theorem idx6_idx8 (i : S32768x32.Idx) : idx_main_v6 (idx_main_v8 i) = i := by
  funext a
  refine Fin.ext ?_
  have h0 : (i 0).val < 32768 := (i 0).isLt
  have h1 : (i 1).val < 32 := (i 1).isLt
  match a with
  | ⟨0, _⟩ =>
    show ((((i 0).val * 32 + (i 1).val) / 65536 * 2048 + ((i 0).val * 32 + (i 1).val) / 32 % 2048) * 32
      + ((i 0).val * 32 + (i 1).val) % 32) / 32 = (i 0).val
    omega
  | ⟨1, _⟩ =>
    show ((((i 0).val * 32 + (i 1).val) / 65536 * 2048 + ((i 0).val * 32 + (i 1).val) / 32 % 2048) * 32
      + ((i 0).val * 32 + (i 1).val) % 32) % 32 = (i 1).val
    omega

/-- The first projection reads the row of the entry, … -/
theorem lidx0_eq (i : S32768x32.Idx) (k : Fin 32) :
    lidx_main_v0 i k = ix2 (row (batchOf (i 0)) (nodeOf (i 0))) k := by
  funext a
  refine Fin.ext ?_
  match a with
  | ⟨0, _⟩ =>
    show (i 0).val = (i 0).val / 2048 * 2048 + (i 0).val % 2048
    omega
  | ⟨1, _⟩ => rfl

/-- … and the column of `W` of the entry. -/
theorem ridx0_eq (i : S32768x32.Idx) (k : Fin 32) : ridx_main_v0 i k = ix2 k (i 1) := by
  funext a
  match a with
  | ⟨0, _⟩ => rfl
  | ⟨1, _⟩ => rfl

/-- The second projection reads channel `k` of the aggregate at the batch and the node of the row. -/
theorem idx4_lidx5 (i : S32768x32.Idx) (k : Fin 32) :
    idx_main_v4 (lidx_main_v5 i k) = ix3 (batchOf (i 0)) (nodeOf (i 0)) k := by
  funext a
  refine Fin.ext ?_
  have h0 : (i 0).val < 32768 := (i 0).isLt
  have hk : k.val < 32 := k.isLt
  match a with
  | ⟨0, _⟩ =>
    show ((i 0).val * 32 + k.val) / 65536 = (i 0).val / 2048
    omega
  | ⟨1, _⟩ =>
    show ((i 0).val * 32 + k.val) / 32 % 2048 = (i 0).val % 2048
    omega
  | ⟨2, _⟩ =>
    show ((i 0).val * 32 + k.val) % 32 = k.val
    omega

theorem ridx5_eq (i : S32768x32.Idx) (k : Fin 32) : ridx_main_v5 i k = ix2 k (i 1) := by
  funext a
  match a with
  | ⟨0, _⟩ => rfl
  | ⟨1, _⟩ => rfl

/-- The aggregation reads the adjacency at `(b, r, j)` … -/
theorem lidx3_ix3 (b : Fin 16) (r : Fin 2048) (k : Fin 32) (j : Fin 2048) :
    lidx_main_v3 (ix3 b r k) j = ix3 b r j := by
  funext a
  match a with
  | ⟨0, _⟩ => rfl
  | ⟨1, _⟩ => rfl
  | ⟨2, _⟩ => rfl

/-- … and the reshaped features at `(b, j, k)`, … -/
theorem ridx3_ix3 (b : Fin 16) (r : Fin 2048) (k : Fin 32) (j : Fin 2048) :
    ridx_main_v3 (ix3 b r k) j = ix3 b j k := by
  funext a
  match a with
  | ⟨0, _⟩ => rfl
  | ⟨1, _⟩ => rfl
  | ⟨2, _⟩ => rfl

/-- … which is row `b * 2048 + j`, channel `k` of the features. -/
theorem idx2_ix3 (b : Fin 16) (j : Fin 2048) (k : Fin 32) : idx_main_v2 (ix3 b j k) = ix2 (row b j) k := by
  funext a
  refine Fin.ext ?_
  have hb : b.val < 16 := b.isLt
  have hj : j.val < 2048 := j.isLt
  have hk : k.val < 32 := k.isLt
  match a with
  | ⟨0, _⟩ =>
    show ((b.val * 2048 + j.val) * 32 + k.val) / 32 = b.val * 2048 + j.val
    omega
  | ⟨1, _⟩ =>
    show ((b.val * 2048 + j.val) * 32 + k.val) % 32 = k.val
    omega

/-! ## The reference's result -/

/-- The reference's result array is `splitArr` of its three arguments. -/
theorem val_main_v8_eq_splitArr (x0 : (⟨S32768x32, .f32⟩ : BufTy).Contents (Elt Ideal))
    (x1 : (⟨S16x2048x2048, .f32⟩ : BufTy).Contents (Elt Ideal))
    (x2 : (⟨S32x32, .f32⟩ : BufTy).Contents (Elt Ideal)) :
    val_main_v8 (F := Ideal) x0 x1 x2 = splitArr x0 x1 x2 := by
  funext i
  rw [val_main_v8_apply, val_main_v7_apply, val_main_v1_apply, val_main_v6_apply, idx1_idx8, idx6_idx8,
    val_main_v0_apply, val_main_v5_apply]
  simp only [val_main_v4_apply, val_main_v3_apply, val_main_v2_apply, idx4_lidx5, lidx3_ix3, ridx3_ix3,
    idx2_ix3, lidx0_eq, ridx0_eq, ridx5_eq]
  rfl

end Cert.Sage.Ref

end
-- ==== Proof.lean ====
/-
  A graph-convolution layer over 16 batches of 2048 nodes with 32 channels: for every node, the features of its
  neighbourhood are aggregated through the batch's dense adjacency matrix, and both the node's own features and
  the aggregate go through one 32 × 32 linear map.

  The kernel adds the node's own features to the aggregate FIRST and applies the linear map once; the reference
  applies the linear map to each of the two and adds the images. Over the extended reals the two agree wherever
  the product distributes over the sum, which it does when every term is a real number: the precondition says
  every input entry is finite, so every aggregate is a finite sum of products of reals, hence real
  (`Cert.Sage.fusedArr_eq_splitArr`).

  The kernel's side: its program is a reshape of the feature rows into batches, one grid of 16 × 4 points each
  writing 512 result rows of one batch, and a reshape back. The run of that program (`Frm.frame`) names the final
  array, and `Val.result_eq` reads it as the fused form of the specification at the arguments. The same run, read
  only at the arguments, is each kernel program's frame. The reference's side is its generated run, read one
  operation at a time as the split form (`Cert.Sage.Ref.val_main_v8_eq_splitArr`).
-/
import proofs.«140792_g20993800142880_cont_8to1_1634_6_alg».proof.Defs
import proofs.«140792_g20993800142880_cont_8to1_1634_6_alg».proof.Proof.Gen.Kernel
import proofs.«140792_g20993800142880_cont_8to1_1634_6_alg».proof.Proof.Gen.KernelIdeal
import proofs.«140792_g20993800142880_cont_8to1_1634_6_alg».proof.Proof.Gen.ReferenceIdeal
import proofs.«140792_g20993800142880_cont_8to1_1634_6_alg».proof.Proof.Gen.Pre_finite_inputs
import proofs.«140792_g20993800142880_cont_8to1_1634_6_alg».proof.Proof.Gen.ReferenceIdeal.Read
import proofs.«140792_g20993800142880_cont_8to1_1634_6_alg».proof.Proof.RunBits
import proofs.«140792_g20993800142880_cont_8to1_1634_6_alg».proof.Proof.ValueIdeal
import proofs.«140792_g20993800142880_cont_8to1_1634_6_alg».proof.Proof.Algebra
import proofs.«140792_g20993800142880_cont_8to1_1634_6_alg».proof.Proof.Finite
import proofs.«140792_g20993800142880_cont_8to1_1634_6_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end and leaves its three arguments as they were. -/
theorem frame_k : Cert.frame_Kernel := fun m ρ _ =>
  (θ_run Cert.Kernel.defs _ _).mono (fun _ h c => ⟨(h c).2.1, (h c).2.2.1, (h c).2.2.2⟩)
    (Cert.Kernel.Frm.frame (F := Bits) m ρ)

/-- So does the idealized kernel. -/
theorem frame_ki : Cert.frame_KernelIdeal := fun m ρ _ =>
  (θ_run Cert.KernelIdeal.defs _ _).mono (fun _ h c => ⟨(h c).2.1, (h c).2.2.1, (h c).2.2.2⟩)
    (Cert.KernelIdeal.Frm.frame (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten when it was idealized. -/
theorem preserves : Cert.preserves_Kernel_KernelIdeal := trivial

/-- Both programs end with the same array: the kernel's is the fused form at its arguments, the reference's the
    split form at arguments that agree with them, and the two forms agree on finite inputs. -/
theorem algebraic : Cert.algebraic_KernelIdeal_ReferenceIdeal := by
  intro m ρ m' ρ' hpre hagree
  refine ⟨fun c => Cert.Sage.fusedArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Val.result_eq m ρ c), (h c).2.1, (h c).2.2.1, (h c).2.2.2⟩)
      (Cert.KernelIdeal.Frm.frame (F := Ideal) m ρ)
  · refine (θ_run Cert.ReferenceIdeal.defs _ _).mono (fun _ h c => ⟨?_, (h c).2⟩)
      (Cert.ReferenceIdeal.Value.run (F := Ideal) m' ρ')
    obtain ⟨hx, hadj, hW⟩ := Cert.Sage.finite_of_pre _ _ _ (hpre c)
    rw [(h c).1, Cert.ReferenceIdeal.Read.val_main_v8_eq, Cert.Sage.Ref.val_main_v8_eq_splitArr,
      (hagree c).1, (hagree c).2.1, (hagree c).2.2]
    exact (Cert.Sage.fusedArr_eq_splitArr _ _ _ hx hadj hW).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
